-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x16x256 : Shape := ⟨3, ![8192, 16, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x16x256 : S_.BroadcastsInDim S8192x16x256 (![] : Fin 0 → Fin S8192x16x256.rank)
  reducesTo_S8192x16x256_S_d0_1_2 : S8192x16x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x16x256 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x16x256 .f32 := Host.absf main_arg1
  let main_cst_0 : FVec F S_ .f32 := constant S_ .f32 0x7F800000#32
  let main_v5 : FVec F S8192x16x256 .f32 := broadcastInDim S8192x16x256 ![] bcast_S_S8192x16x256 main_cst_0
  let main_v6 : IVec S8192x16x256 1 := cmpf .olt main_v4 main_v5
  let main_c_1 : IVec S_ 1 := constantI S_ 1 1#1
  let main_v7 : IVec S_ 1 := (fun x v => Host.reduce IntOp.andi x v reducesTo_S8192x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S8192x16x256 : Shape := ⟨3, ![8192, 16, 256]⟩
abbrev S256x256 : Shape := ⟨2, ![256, 256]⟩
abbrev S_ : Shape := ⟨0, ![]⟩
abbrev S256x16x256 : Shape := ⟨3, ![256, 16, 256]⟩
abbrev S4096x256 : Shape := ⟨2, ![4096, 256]⟩

abbrev nBuf : Space → Nat
  | .hbm => 14
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x16x256, .f32⟩
  | .hbm, ⟨2, _⟩ => ⟨S256x256, .f32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .f32⟩
  | .hbm, ⟨10, _⟩ => ⟨S256x16x256, .f32⟩
  | .hbm, ⟨11, _⟩ => ⟨S4096x256, .f32⟩
  | .hbm, ⟨12, _⟩ => ⟨S8192x256, .f32⟩
  | .hbm, ⟨13, _⟩ => ⟨S8192x16x256, .f32⟩
  | .local _ .vmem, ⟨0, _⟩ => ⟨S256x256, .f32⟩
  | .local _ .vmem, ⟨1, _⟩ => ⟨S256x256, .f32⟩
  | .local _ .vmem, ⟨2, _⟩ => ⟨S256x16x256, .f32⟩
  | .local _ .vmem, ⟨3, _⟩ => ⟨S256x16x256, .f32⟩
  | .local _ .vmem, ⟨4, _⟩ => ⟨S256x256, .f32⟩
  | .local _ .vmem, ⟨5, _⟩ => ⟨S4096x256, .f32⟩
  | .local _ .vmem, ⟨6, _⟩ => ⟨S256x256, .f32⟩
  | .local _ .vmem, ⟨7, _⟩ => ⟨S256x256, .f32⟩
  | .local _ .vmem, ⟨8, _⟩ => ⟨S256x16x256, .f32⟩
  | .local _ .vmem, ⟨9, _⟩ => ⟨S256x16x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S256x256 : S_.BroadcastsInDim S256x256 (![] : Fin 0 → Fin S256x256.rank)
  bcast_S256x256_S256x16x256_0_2 : S256x256.BroadcastsInDim S256x16x256 (![0, 2] : Fin 2 → Fin S256x16x256.rank)
  shapeCasts_S256x16x256_S4096x256 : S256x16x256.ShapeCasts S4096x256
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x16x256_S256x16x256_0_0_0 : ∀ a, (![0, 0, 0] : Fin 3 → Nat) a + S256x16x256.size a ≤ S256x16x256.size a
  h_S256x16x256 : 0 < S256x16x256.numel
  shapeCasts_S4096x256_S256x16x256 : S4096x256.ShapeCasts S256x16x256
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x256.size a ≤ S8192x16x256.size a
  hwx0_1 : ∀ i : grid0.Coords, EltTy.bits .f32 = 32 ∨ (Rect.block (s := S8192x16x256) S256x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x256.size a
  hwx0_4 : ∀ i : grid0.Coords, EltTy.bits .f32 = 32 ∨ (Rect.block (s := S8192x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x16x256.size a ≤ S8192x16x256.size a
  hwx0_5 : ∀ i : grid0.Coords, EltTy.bits .f32 = 32 ∨ (Rect.block (s := S8192x16x256) S256x16x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x16x256 : Shape := ⟨3, ![8192, 16, 256]⟩
abbrev S256x256 : Shape := ⟨2, ![256, 256]⟩
abbrev S16x8192x256 : Shape := ⟨3, ![16, 8192, 256]⟩
abbrev S512x256 : Shape := ⟨2, ![512, 256]⟩
abbrev S16x512x256 : Shape := ⟨3, ![16, 512, 256]⟩
abbrev S1x512x256 : Shape := ⟨3, ![1, 512, 256]⟩

abbrev nBuf : Space → Nat
  | .hbm => 7
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x16x256, .f32⟩
  | .hbm, ⟨2, _⟩ => ⟨S256x256, .f32⟩
  | .hbm, ⟨3, _⟩ => ⟨S16x8192x256, .f32⟩
  | .hbm, ⟨4, _⟩ => ⟨S8192x256, .f32⟩
  | .hbm, ⟨5, _⟩ => ⟨S16x8192x256, .f32⟩
  | .hbm, ⟨6, _⟩ => ⟨S8192x16x256, .f32⟩
  | .local _ .vmem, ⟨0, _⟩ => ⟨S512x256, .f32⟩
  | .local _ .vmem, ⟨1, _⟩ => ⟨S512x256, .f32⟩
  | .local _ .vmem, ⟨2, _⟩ => ⟨S16x512x256, .f32⟩
  | .local _ .vmem, ⟨3, _⟩ => ⟨S16x512x256, .f32⟩
  | .local _ .vmem, ⟨4, _⟩ => ⟨S256x256, .f32⟩
  | .local _ .vmem, ⟨5, _⟩ => ⟨S512x256, .f32⟩
  | .local _ .vmem, ⟨6, _⟩ => ⟨S512x256, .f32⟩
  | .local _ .vmem, ⟨7, _⟩ => ⟨S16x512x256, .f32⟩
  | .local _ .vmem, ⟨8, _⟩ => ⟨S16x512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8192x16x256_S16x8192x256_1_0_2 : S8192x16x256.Transposes [1, 0, 2] S16x8192x256
  inb_S256x256_S256x256_0_0 : ∀ a, (![0, 0] : Fin 2 → Nat) a + S256x256.size a ≤ S256x256.size a
  h_S256x256 : 0 < S256x256.numel
  inb_S512x256_S512x256_0_0 : ∀ a, (![0, 0] : Fin 2 → Nat) a + S512x256.size a ≤ S512x256.size a
  h_S512x256 : 0 < S512x256.numel
  inb_S16x512x256_S1x512x256_0_0_0 : ∀ a, (![0, 0, 0] : Fin 3 → Nat) a + S1x512x256.size a ≤ S16x512x256.size a
  h_S1x512x256 : 0 < S1x512x256.numel
  shapeCasts_S1x512x256_S512x256 : S1x512x256.ShapeCasts S512x256
  shapeCasts_S512x256_S1x512x256 : S512x256.ShapeCasts S1x512x256
  inb_S16x512x256_S1x512x256_1_0_0 : ∀ a, (![1, 0, 0] : Fin 3 → Nat) a + S1x512x256.size a ≤ S16x512x256.size a
  inb_S16x512x256_S1x512x256_2_0_0 : ∀ a, (![2, 0, 0] : Fin 3 → Nat) a + S1x512x256.size a ≤ S16x512x256.size a
  inb_S16x512x256_S1x512x256_3_0_0 : ∀ a, (![3, 0, 0] : Fin 3 → Nat) a + S1x512x256.size a ≤ S16x512x256.size a
  inb_S16x512x256_S1x512x256_4_0_0 : ∀ a, (![4, 0, 0] : Fin 3 → Nat) a + S1x512x256.size a ≤ S16x512x256.size a
  inb_S16x512x256_S1x512x256_5_0_0 : ∀ a, (![5, 0, 0] : Fin 3 → Nat) a + S1x512x256.size a ≤ S16x512x256.size a
  inb_S16x512x256_S1x512x256_6_0_0 : ∀ a, (![6, 0, 0] : Fin 3 → Nat) a + S1x512x256.size a ≤ S16x512x256.size a
  inb_S16x512x256_S1x512x256_7_0_0 : ∀ a, (![7, 0, 0] : Fin 3 → Nat) a + S1x512x256.size a ≤ S16x512x256.size a
  inb_S16x512x256_S1x512x256_8_0_0 : ∀ a, (![8, 0, 0] : Fin 3 → Nat) a + S1x512x256.size a ≤ S16x512x256.size a
  inb_S16x512x256_S1x512x256_9_0_0 : ∀ a, (![9, 0, 0] : Fin 3 → Nat) a + S1x512x256.size a ≤ S16x512x256.size a
  inb_S16x512x256_S1x512x256_10_0_0 : ∀ a, (![10, 0, 0] : Fin 3 → Nat) a + S1x512x256.size a ≤ S16x512x256.size a
  inb_S16x512x256_S1x512x256_11_0_0 : ∀ a, (![11, 0, 0] : Fin 3 → Nat) a + S1x512x256.size a ≤ S16x512x256.size a
  inb_S16x512x256_S1x512x256_12_0_0 : ∀ a, (![12, 0, 0] : Fin 3 → Nat) a + S1x512x256.size a ≤ S16x512x256.size a
  inb_S16x512x256_S1x512x256_13_0_0 : ∀ a, (![13, 0, 0] : Fin 3 → Nat) a + S1x512x256.size a ≤ S16x512x256.size a
  inb_S16x512x256_S1x512x256_14_0_0 : ∀ a, (![14, 0, 0] : Fin 3 → Nat) a + S1x512x256.size a ≤ S16x512x256.size a
  inb_S16x512x256_S1x512x256_15_0_0 : ∀ a, (![15, 0, 0] : Fin 3 → Nat) a + S1x512x256.size a ≤ S16x512x256.size a
  transposes_S16x8192x256_S8192x16x256_1_0_2 : S16x8192x256.Transposes [1, 0, 2] S8192x16x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x256.size a ≤ S16x8192x256.size a
  hwx0_1 : ∀ i : grid0.Coords, EltTy.bits .f32 = 32 ∨ (Rect.block (s := S16x8192x256) S16x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512x256.size a ≤ S16x8192x256.size a
  hwx0_4 : ∀ i : grid0.Coords, EltTy.bits .f32 = 32 ∨ (Rect.block (s := S16x8192x256) S16x512x256.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S16x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The graph convolution both programs compute, stated once over the whole argument arrays.

  A node b has a feature row x[b, ·] and sixteen neighbour rows n[b, k, ·]; every row is multiplied by the same
  256 × 256 matrix w.  The first result adds up the sixteen projected neighbour rows of a node; the second adds the
  node's own projected row to each projected neighbour row.  All sums are sums of extended reals.
-/
import Idealize.ShloMosaic.PureOps.Ideal
import Idealize.ShloMosaic.Lib.ValueIdx

noncomputable section

open scoped BigOperators

namespace Cert.GraphConv

open Idealize.ShloMosaic Idealize.ShloMosaic.ValueIdx

/-- The node features, 8192 rows of 256. -/
abbrev SX : Shape := ⟨2, ![8192, 256]⟩
/-- The neighbour features, sixteen rows of 256 per node. -/
abbrev SN : Shape := ⟨3, ![8192, 16, 256]⟩
/-- The weight matrix. -/
abbrev SW : Shape := ⟨2, ![256, 256]⟩

/-- Entry j of node b's feature row times the matrix: the sum over f of x[b, f] · w[f, j]. -/
def proj (x : FVec Ideal SX .f32) (w : FVec Ideal SW .f32) (b : Fin 8192) (j : Fin 256) : EReal :=
  ∑ f : Fin 256, x (ix2 b f) * w (ix2 f j)

/-- Entry j of node b's k-th neighbour row times the matrix: the sum over f of n[b, k, f] · w[f, j]. -/
def nproj (n : FVec Ideal SN .f32) (w : FVec Ideal SW .f32) (b : Fin 8192) (k : Fin 16) (j : Fin 256) : EReal :=
  ∑ f : Fin 256, n (ix3 b k f) * w (ix2 f j)

/-- The first result at (b, j): the sum over the sixteen neighbours of their projected rows' entry j. -/
def aggred (n : FVec Ideal SN .f32) (w : FVec Ideal SW .f32) : FVec Ideal SX .f32 :=
  fun i => ∑ k : Fin 16, nproj n w (i 0) k (i 1)

/-- The second result at (b, k, j): the node's projected row plus its k-th neighbour's projected row, at entry j. -/
def neighborOut (x : FVec Ideal SX .f32) (n : FVec Ideal SN .f32) (w : FVec Ideal SW .f32) : FVec Ideal SN .f32 :=
  fun i => proj x w (i 0) (i 2) + nproj n w (i 0) (i 1) (i 2)

end Cert.GraphConv

end
-- ==== Proof.KerExpand.lean ====
/-
  The expansion matrix the kernel's host code builds before the launch: 4096 rows of 256, with a one in row r at column
  r / 16 and zeros elsewhere.  It is the 256 × 256 identity (a comparison of the row number with the column number,
  converted to a float), each row repeated sixteen times (a broadcast along a new middle axis of sixteen) and the first
  two axes then merged.
-/
import proofs.«118732_g2000104578353512_pallasbulk_618_15_alg».proof.Proof.Gen.KernelIdeal.Value
import Idealize.ShloMosaic.Lib.StableHlo.Run
import Idealize.ShloMosaic.Lib.IdealHost
import Idealize.ShloMosaic.Lib.ValueLayout
import Idealize.ShloMosaic.Lib.ValueIdx
import Idealize.ShloMosaic.Lib.Pipeline.Value

noncomputable section

namespace Cert.KerSide

open Idealize.ShloMosaic Idealize.ShloMosaic.TcCoe Idealize.SL.Sem Idealize.ShloMosaic.ValueIdx
open Cert.KernelIdeal Cert.KernelIdeal.Gen

/-- The comparison of two numbers below 256, made on 32-bit words after adding the zero word to the first, converted to
    an extended real: one when they are equal, zero when they are not. -/
theorem eye_word (q p : Nat) (hq : q < 256) (hp : p < 256) :
    (((IntOp.cmpi .eq (IntOp.addi (BitVec.ofNat 32 q) (0#32)) (BitVec.ofNat 32 p)).toNat : ℝ) : EReal)
      = if q = p then 1 else 0 := by
  unfold IntOp.cmpi IntOp.addi
  by_cases h : q = p
  · subst h; simp
  · have hne : BitVec.ofNat 32 q ≠ BitVec.ofNat 32 p := by
      intro e
      apply h
      have e' := congrArg BitVec.toNat e
      simp only [BitVec.toNat_ofNat] at e'
      omega
    simp [hne, h]

/-- The expansion matrix, as the host operations before the launch compute it. -/
def expand : FVec Ideal S4096x256 .f32 :=
  shapeCast S4096x256 (broadcastInDim S256x16x256 ![0, 2] bcast_S256x256_S256x16x256_0_2
    (uitofp (F := Ideal) .f32 (cmpi .eq (addi (iotaInDim S256x256 32 0)
      (broadcastInDim S256x256 ![] bcast_S_S256x256 (constantI S_ 32 0#32))) (iotaInDim S256x256 32 1))))
    shapeCasts_S256x16x256_S4096x256

/-- The launch finds the expansion matrix in the fourth operand's array. -/
theorem V_expand (m : (ℓ : Loc nD τ sig) → Buf (Elt Ideal) ℓ) (c : Dev nD) :
    (V (F := Ideal) m c main_call0_v7 : S4096x256.Idx → EReal) = expand := by
  dsimp only [Gen.V, Gen.hostOps0]
  after_results
  rfl

/-- Row r of the expansion matrix has its one at column r / 16. -/
theorem expand_apply (r : Fin 4096) (p : Fin 256) :
    expand (ix2 r p) = if r.val / 16 = p.val then 1 else 0 := by
  have hr := r.isLt
  have hp := p.isLt
  unfold expand
  rw [shapeCast_apply _ _ (ix2 r p)
    (ix3 (⟨r.val / 16, by omega⟩ : Fin 256) (⟨r.val % 16, by omega⟩ : Fin 16) p)
    (by rw [Shape.rowMajor_val_three, Shape.rowMajor_val_two]
        show (r.val / 16 * 16 + r.val % 16) * 256 + p.val = r.val * 256 + p.val
        omega)]
  rw [broadcastInDim_apply _ _ _ _ (ix2 (⟨r.val / 16, by omega⟩ : Fin 256) p)
    (by intro a; match a with | ⟨0, _⟩ => rfl | ⟨1, _⟩ => rfl)]
  exact eye_word (r.val / 16) p.val (by omega) hp

end Cert.KerSide

end
-- ==== Proof.LibRowOps.lean ====
/-
  General reads at an index, at the ideal values, used by the row-local stages of a network: a matrix product
  accumulated into zero, a column broadcast across the columns, and a select on a strict comparison of two values.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibGramProduct.lean ====
/-
  A matrix product that contracts the ROWS of both operands, accumulated into zero and read at an entry, at the ideal
  values: for A of k rows and m columns and B of k rows and n columns, entry (a, b) of the m × n result is the sum over the
  rows c of A[c, a] · B[c, b].
-/
import Idealize.ShloMosaic.PureOps.Ideal.Laws
import Idealize.ShloMosaic.Lib.ValueIdx

noncomputable section

open scoped BigOperators

namespace Cert.GramLib

open Idealize.ShloMosaic Idealize.ShloMosaic.ValueIdx

/-- The product of the transpose of a k × m matrix with a k × n matrix, accumulated into the zero splat, read at (a, b):
    the sum over the shared row number c of A[c, a] · B[c, b]. -/
theorem matmul_rows_zero_ix2 {k m n : Nat} {φ₁ φ₂ : FTy}
    (w : DotDims.WF ⟨2, ![k, m]⟩ ⟨2, ![k, n]⟩ ⟨2, ![m, n]⟩ [0] [0] [1] [1] [] [])
    (prec : Option ContractPrecision)
    (A : FVec Ideal ⟨2, ![k, m]⟩ φ₁) (B : FVec Ideal ⟨2, ![k, n]⟩ φ₂) (a : Fin m) (b : Fin n) :
    matmul (⟨[0], [0], [1], [1], [], [], w⟩ : DotDims ⟨2, ![k, m]⟩ ⟨2, ![k, n]⟩ ⟨2, ![m, n]⟩) prec A B
        (constant ⟨2, ![m, n]⟩ .f32 0x00000000#32) (ix2 a b)
      = ∑ c : Fin k, A (ix2 c a) * B (ix2 c b) := by
  show FloatOps.matmul _ prec A B (constant ⟨2, ![m, n]⟩ .f32 0x00000000#32) (ix2 a b) = _
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.GramLib

end
-- ==== Proof.KerPayload.lean ====
/-
  What the kernel's body computes at one grid point, entry by entry, from the blocks it loads: x (256 node rows),
  nb (256 × 16 neighbour rows), w (the matrix) and E (the expansion matrix, 4096 × 256).

  The neighbour block, its first two axes merged into 4096 rows, is multiplied by w; row r of that product belongs to
  node r / 16, slot r % 16.  The first output is Eᵀ times that product; the second is that product plus E times (x · w),
  split back into 256 × 16 rows.
-/
import proofs.«118732_g2000104578353512_pallasbulk_618_15_alg».proof.Proof.Gen.KernelIdeal.Skeleton
import proofs.«118732_g2000104578353512_pallasbulk_618_15_alg».proof.Proof.LibRowOps
import proofs.«118732_g2000104578353512_pallasbulk_618_15_alg».proof.Proof.LibGramProduct
import Idealize.ShloMosaic.Lib.ValueIdx
import Idealize.ShloMosaic.Lib.Pipeline.Value

noncomputable section

open scoped BigOperators

namespace Cert.KerSide

open Idealize.ShloMosaic Idealize.ShloMosaic.ValueIdx
open Cert.KernelIdeal Cert.KernelIdeal.Gen

/-- Row r of the merged neighbour block times the matrix, at column j: the sum over f of nb[r / 16, r % 16, f] · w[f, j]. -/
theorem pay2_apply (w : FVec Ideal S256x256 .f32) (nb : FVec Ideal S256x16x256 .f32) (r : Fin 4096) (j : Fin 256) :
    k0_pay2 (F := Ideal) w nb (ix2 r j)
      = ∑ f : Fin 256, nb (ix3 (⟨r.val / 16, by omega⟩ : Fin 256) (⟨r.val % 16, by omega⟩ : Fin 16) f) * w (ix2 f j) := by
  unfold k0_pay2
  have hD : dot_S4096x256_S256x256_S4096x256_1_0_0_1_n_n = DotDims.plain 4096 256 256 :=
    Cert.RowLib.dotDims_eq_plain _ rfl rfl rfl rfl rfl rfl
  rw [hD]
  refine (Cert.RowLib.matmul_plain_zero_ix2 none _ w r j).trans ?_
  refine Finset.sum_congr rfl fun f _ => ?_
  refine congrArg (· * w (ix2 f j)) ?_
  exact shapeCast_apply nb _ (ix2 r f) (ix3 (⟨r.val / 16, by omega⟩ : Fin 256) (⟨r.val % 16, by omega⟩ : Fin 16) f)
    (by rw [Shape.rowMajor_val_three, Shape.rowMajor_val_two]
        show (r.val / 16 * 16 + r.val % 16) * 256 + f.val = r.val * 256 + f.val
        omega)

/-- The first output at (p, j): the sum over the 4096 merged rows r of E[r, p] times row r of the neighbour product. -/
theorem pay4_apply (w : FVec Ideal S256x256 .f32) (E : FVec Ideal S4096x256 .f32) (nb : FVec Ideal S256x16x256 .f32)
    (p j : Fin 256) :
    k0_pay4 (F := Ideal) w E nb (ix2 p j) = ∑ r : Fin 4096, E (ix2 r p) * k0_pay2 (F := Ideal) w nb (ix2 r j) := by
  unfold k0_pay4 k0_pay1
  rw [shapeCast_self]
  exact Cert.GramLib.matmul_rows_zero_ix2 dot_S4096x256_S4096x256_S256x256_0_0_1_1_n_n_wf none E (k0_pay2 (F := Ideal) w nb) p j

/-- The second output at (p, k, j): row 16 p + k of the neighbour product, plus the sum over the 256 nodes q of
    E[16 p + k, q] times node q's projected row. -/
theorem pay3_apply (w : FVec Ideal S256x256 .f32) (E : FVec Ideal S4096x256 .f32) (nb : FVec Ideal S256x16x256 .f32)
    (x : FVec Ideal S256x256 .f32) (p : Fin 256) (k : Fin 16) (j : Fin 256) :
    k0_pay3 (F := Ideal) w E nb x (ix3 p k j)
      = k0_pay2 (F := Ideal) w nb (ix2 (⟨p.val * 16 + k.val, by omega⟩ : Fin 4096) j)
        + ∑ q : Fin 256, E (ix2 (⟨p.val * 16 + k.val, by omega⟩ : Fin 4096) q) * ∑ f : Fin 256, x (ix2 q f) * w (ix2 f j) := by
  unfold k0_pay3 k0_pay1
  rw [shapeCast_self]
  have hD : dot_S4096x256_S256x256_S4096x256_1_0_0_1_n_n = DotDims.plain 4096 256 256 :=
    Cert.RowLib.dotDims_eq_plain _ rfl rfl rfl rfl rfl rfl
  have hD' : dot_S256x256_S256x256_S256x256_1_0_0_1_n_n = DotDims.plain 256 256 256 :=
    Cert.RowLib.dotDims_eq_plain _ rfl rfl rfl rfl rfl rfl
  refine (shapeCast_apply _ _ (ix3 p k j) (ix2 (⟨p.val * 16 + k.val, by omega⟩ : Fin 4096) j)
    (by rw [Shape.rowMajor_val_three, Shape.rowMajor_val_two]
        show (p.val * 16 + k.val) * 256 + j.val = (p.val * 16 + k.val) * 256 + j.val
        rfl)).trans ?_
  rw [addf_apply]
  refine congrArg (k0_pay2 (F := Ideal) w nb (ix2 (⟨p.val * 16 + k.val, by omega⟩ : Fin 4096) j) + ·) ?_
  rw [hD, hD']
  refine (Cert.RowLib.matmul_plain_zero_ix2 none E _ _ j).trans ?_
  refine Finset.sum_congr rfl fun q _ => ?_
  exact congrArg (E (ix2 (⟨p.val * 16 + k.val, by omega⟩ : Fin 4096) q) * ·) (Cert.RowLib.matmul_plain_zero_ix2 none x w q j)

end Cert.KerSide

end
-- ==== Proof.LibBlockSum.lean ====
/-
  Sums over a range cut into equal blocks, and sums of real numbers among the extended reals.

  A sum over `Fin (A * B)` is the double sum over a block number `a < A` and a position `b < B` inside the block,
  the entry read at `a * B + b`; two such cuts give the three-level form used for rows grouped first by core, then
  by grid step, then by row inside the step's block. The coercion of the reals into the extended reals commutes
  with finite sums, so a sum of 1s and 0s chosen by a predicate is the number of indices where it holds.
-/
import Mathlib.Algebra.BigOperators.Fin
import Mathlib.Algebra.BigOperators.Ring.Finset
import Mathlib.Data.EReal.Basic
import Mathlib.Logic.Equiv.Fin.Basic

namespace Cert.Lib.BlockSum

/-- Position `b` of block `a` lies inside the range. -/
theorem blk_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over blocks of the sums inside each block. -/
theorem sum_fin_blocks {M : Type*} [AddCommMonoid M] (A B : ℕ) (h : Fin (A * B) → M) :
    ∑ x, h x = ∑ a : Fin A, ∑ b : Fin B, h ⟨a.val * B + b.val, blk_lt a b⟩ := by
  rw [← Equiv.sum_comp finProdFinEquiv h, Fintype.sum_prod_type]
  refine Finset.sum_congr rfl fun a _ => Finset.sum_congr rfl fun b _ => congrArg h (Fin.ext ?_)
  show b.val + B * a.val = a.val * B + b.val
  rw [Nat.mul_comm, Nat.add_comm]

/-- The same for a range whose length is given as a number equal to `A * B`. -/
theorem sum_fin_blocks_of_eq {M : Type*} [AddCommMonoid M] {n : ℕ} (A B : ℕ) (hn : A * B = n) (h : Fin n → M) :
    ∑ x, h x = ∑ a : Fin A, ∑ b : Fin B, h ⟨a.val * B + b.val, hn ▸ blk_lt a b⟩ := by
  subst hn
  exact sum_fin_blocks A B h

/-- Row `r` of step `j` of core `p` lies inside the range. -/
theorem row_lt {P J R n : ℕ} (hn : P * J * R = n) (p : Fin P) (j : Fin J) (r : Fin R) :
    (p.val * J + j.val) * R + r.val < n :=
  hn ▸ blk_lt (⟨p.val * J + j.val, blk_lt p j⟩ : Fin (P * J)) r

/-- A sum over `P * J * R` rows, grouped by core `p`, step `j` and row `r` inside the step's block. -/
theorem sum_rows {M : Type*} [AddCommMonoid M] {n : ℕ} (P J R : ℕ) (hn : P * J * R = n) (g : Fin n → M) :
    ∑ x, g x = ∑ p : Fin P, ∑ j : Fin J, ∑ r : Fin R, g ⟨(p.val * J + j.val) * R + r.val, row_lt hn p j r⟩ := by
  rw [sum_fin_blocks_of_eq (P * J) R hn g,
    sum_fin_blocks P J fun t => ∑ r : Fin R, g ⟨t.val * R + r.val, hn ▸ blk_lt t r⟩]

/-- The coercion of the reals into the extended reals commutes with finite sums. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of 1s (where `p` holds) and 0s (where it does not), among the extended reals, is the number of indices
    where `p` holds. -/
theorem sum_indicator {ι : Type*} [Fintype ι] (p : ι → Prop) [DecidablePred p] :
    ∑ i, (((if p i then 1 else 0 : ℝ)) : EReal) = (((Finset.univ.filter p).card : ℝ) : EReal) := by
  rw [← coe_sum, Finset.sum_boole]

end Cert.Lib.BlockSum
-- ==== Proof.KerAlgebra.lean ====
/-
  Sums weighted by a zero-one pattern, among the extended reals.

  A weight that is one on the sixteen consecutive positions 16 p, …, 16 p + 15 of a range of 4096 and zero elsewhere turns
  a weighted sum over the range into the sum over those sixteen positions; a weight that is one at a single position p of a
  range of 256 and zero elsewhere picks out the term at p.  Only 0 · x = 0, 1 · x = x and the laws of a commutative monoid
  under addition are used, so nothing is asked of the terms: they may be infinite.
-/
import proofs.«118732_g2000104578353512_pallasbulk_618_15_alg».proof.Proof.LibBlockSum
import Mathlib.Data.EReal.Basic

noncomputable section

open scoped BigOperators

namespace Cert.KerSide

/-- A sum over 4096 positions weighted by the indicator of "position / 16 = p" is the sum over the sixteen positions
    16 p + k. -/
theorem segment_sum (E g : Fin 4096 → EReal) (p : Fin 256)
    (hE : ∀ r : Fin 4096, E r = if r.val / 16 = p.val then 1 else 0) :
    ∑ r : Fin 4096, E r * g r = ∑ k : Fin 16, g ⟨p.val * 16 + k.val, by omega⟩ := by
  rw [Cert.Lib.BlockSum.sum_fin_blocks_of_eq 256 16 (by norm_num) (fun r => E r * g r)]
  rw [Finset.sum_eq_single p]
  · refine Finset.sum_congr rfl fun k _ => ?_
    rw [hE, if_pos (by show (p.val * 16 + k.val) / 16 = p.val; omega), one_mul]
  · intro a _ hne
    refine Finset.sum_eq_zero fun k _ => ?_
    rw [hE, if_neg (by
      show ¬ (a.val * 16 + k.val) / 16 = p.val
      have := Fin.val_ne_of_ne hne
      omega), zero_mul]
  · intro h; exact absurd (Finset.mem_univ p) h

/-- A sum over 256 positions weighted by the indicator of "position = p" is the term at p. -/
theorem pick_sum (E h : Fin 256 → EReal) (p : Fin 256)
    (hE : ∀ q : Fin 256, E q = if p.val = q.val then 1 else 0) :
    ∑ q : Fin 256, E q * h q = h p := by
  rw [Finset.sum_eq_single p]
  · rw [hE, if_pos rfl, one_mul]
  · intro q _ hne
    rw [hE, if_neg (by have := Fin.val_ne_of_ne hne; omega), zero_mul]
  · intro h'; exact absurd (Finset.mem_univ p) h'

end Cert.KerSide

end
-- ==== Proof.KerPoint.lean ====
/-
  The kernel's two payloads at one grid point, with the expansion matrix read as the zero-one pattern it is.

  For blocks x (256 node rows), nb (256 × 16 neighbour rows) and the matrix w: the first payload at (p, j) is the sum over
  the sixteen neighbours k of node p of the projected rows' entry j, and the second at (p, k, j) is node p's projected
  row plus its k-th neighbour's projected row, at entry j.
-/
import proofs.«118732_g2000104578353512_pallasbulk_618_15_alg».proof.Proof.KerExpand
import proofs.«118732_g2000104578353512_pallasbulk_618_15_alg».proof.Proof.KerPayload
import proofs.«118732_g2000104578353512_pallasbulk_618_15_alg».proof.Proof.KerAlgebra

noncomputable section

open scoped BigOperators

namespace Cert.KerSide

open Idealize.ShloMosaic Idealize.ShloMosaic.ValueIdx
open Cert.KernelIdeal Cert.KernelIdeal.Gen

/-- Merged row 16 p + k of the neighbour product is the projected row of neighbour k of node p. -/
theorem pay2_row (w : FVec Ideal S256x256 .f32) (nb : FVec Ideal S256x16x256 .f32) (p : Fin 256) (k : Fin 16) (j : Fin 256) :
    k0_pay2 (F := Ideal) w nb (ix2 (⟨p.val * 16 + k.val, by omega⟩ : Fin 4096) j)
      = ∑ f : Fin 256, nb (ix3 p k f) * w (ix2 f j) := by
  refine (pay2_apply w nb _ j).trans ?_
  have e1 : (⟨(p.val * 16 + k.val) / 16, by omega⟩ : Fin 256) = p :=
    Fin.ext (by show (p.val * 16 + k.val) / 16 = p.val; omega)
  have e2 : (⟨(p.val * 16 + k.val) % 16, by omega⟩ : Fin 16) = k :=
    Fin.ext (by show (p.val * 16 + k.val) % 16 = k.val; omega)
  refine Finset.sum_congr rfl fun f _ => ?_
  show nb (ix3 (⟨(p.val * 16 + k.val) / 16, _⟩ : Fin 256) (⟨(p.val * 16 + k.val) % 16, _⟩ : Fin 16) f) * w (ix2 f j) = _
  rw [e1, e2]

/-- The first payload: column p of the expansion matrix has its ones on the merged rows 16 p, …, 16 p + 15, so the
    weighted sum over the 4096 merged rows is the sum over node p's sixteen neighbours. -/
theorem point_agg (w : FVec Ideal S256x256 .f32) (nb : FVec Ideal S256x16x256 .f32) (p j : Fin 256) :
    k0_pay4 (F := Ideal) w expand nb (ix2 p j) = ∑ k : Fin 16, ∑ f : Fin 256, nb (ix3 p k f) * w (ix2 f j) := by
  refine (pay4_apply w expand nb p j).trans ?_
  refine (segment_sum (fun r => expand (ix2 r p)) (fun r => k0_pay2 (F := Ideal) w nb (ix2 r j)) p
    (fun r => expand_apply r p)).trans ?_
  exact Finset.sum_congr rfl fun k _ => pay2_row w nb p k j

/-- The second payload: row 16 p + k of the expansion matrix has its one at column p, so the weighted sum over the 256
    nodes of the block is node p's projected row. -/
theorem point_out (w : FVec Ideal S256x256 .f32) (nb : FVec Ideal S256x16x256 .f32) (x : FVec Ideal S256x256 .f32)
    (p : Fin 256) (k : Fin 16) (j : Fin 256) :
    k0_pay3 (F := Ideal) w expand nb x (ix3 p k j)
      = (∑ f : Fin 256, x (ix2 p f) * w (ix2 f j)) + ∑ f : Fin 256, nb (ix3 p k f) * w (ix2 f j) := by
  refine (pay3_apply w expand nb x p k j).trans ?_
  rw [pay2_row w nb p k j,
    pick_sum (fun q => expand (ix2 (⟨p.val * 16 + k.val, by omega⟩ : Fin 4096) q))
      (fun q => ∑ f : Fin 256, x (ix2 q f) * w (ix2 f j)) p
      (fun q => (expand_apply _ q).trans
        (if_congr (by show (p.val * 16 + k.val) / 16 = q.val ↔ p.val = q.val; omega) rfl rfl))]
  exact add_comm _ _

end Cert.KerSide

end
-- ==== Proof.KerBlocks.lean ====
/-
  From the blocks to the whole arrays, for the kernel with the expansion matrix.

  Grid point t handles the 256 nodes 256 t, …, 256 t + 255: its blocks of the node features, of the neighbour features and
  of both results are rows 256 t onward of their arrays, while the matrix and the expansion matrix are handed over whole at
  every point.  With the expansion matrix read as the zero-one pattern it is, what point t writes back is block t of the
  graph convolution of the whole argument arrays; the 32 blocks tile both result arrays.
-/
import proofs.«118732_g2000104578353512_pallasbulk_618_15_alg».proof.Proof.Gen.KernelIdeal.Value
import proofs.«118732_g2000104578353512_pallasbulk_618_15_alg».proof.Proof.KerPoint
import proofs.«118732_g2000104578353512_pallasbulk_618_15_alg».proof.Proof.Spec

set_option maxRecDepth 16384

noncomputable section

open scoped BigOperators

namespace Cert.KerSide

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 32 grid points: the node, neighbour and result blocks move down their first axis
    with the point; the matrix and the expansion matrix stay at block (0, 0). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The matrix's block at any point is the whole matrix argument. -/
theorem blk_w (c : Dev nD) (t : Fin cfg0.N) :
    (iblk m c 2 t : S256x256.Idx → EReal) = m ((c : Thread nD τ).loc main_arg2) := by
  funext z
  show V m c main_arg2 (((cfg0.win 2).blk t).view.emb z) = _
  rw [V_main_arg2]
  refine congrArg _ (funext fun a => Fin.ext ?_)
  obtain ⟨-, -, -, -, -, e0, e1, -⟩ := idx_facts t
  match a with
  | ⟨0, _⟩ => show win0_2.index t (0 : Fin 2) * 256 + 1 * (z 0).val = (z 0).val; omega
  | ⟨1, _⟩ => show win0_2.index t (1 : Fin 2) * 256 + 1 * (z 1).val = (z 1).val; omega

/-- The expansion matrix's block at any point is the whole expansion matrix. -/
theorem blk_E (c : Dev nD) (t : Fin cfg0.N) :
    (iblk m c 3 t : S4096x256.Idx → EReal) = expand := by
  funext z
  show V m c main_call0_v7 (((cfg0.win 3).blk t).view.emb z) = _
  rw [V_expand]
  refine congrArg _ (funext fun a => Fin.ext ?_)
  obtain ⟨-, -, -, -, -, -, -, e0, e1, -⟩ := idx_facts t
  match a with
  | ⟨0, _⟩ => show win0_3.index t (0 : Fin 2) * 4096 + 1 * (z 0).val = (z 0).val; omega
  | ⟨1, _⟩ => show win0_3.index t (1 : Fin 2) * 256 + 1 * (z 1).val = (z 1).val; omega

/-- Row p of the node block at point t is node 256 t + p. -/
theorem blk_x (c : Dev nD) (t : Fin cfg0.N) (p f : Fin 256) (b : Fin 8192) (hb : b.val = t.val * 256 + p.val) :
    iblk m c 0 t (ix2 p f) = m ((c : Thread nD τ).loc main_arg0) (ix2 b f) := by
  show V m c main_arg0 (((cfg0.win 0).blk t).view.emb (ix2 p f)) = _
  rw [V_main_arg0]
  refine congrArg _ (funext fun a => Fin.ext ?_)
  obtain ⟨e0, e1, -⟩ := idx_facts t
  match a with
  | ⟨0, _⟩ => show win0_0.index t (0 : Fin 2) * 256 + 1 * p.val = b.val; omega
  | ⟨1, _⟩ => show win0_0.index t (1 : Fin 2) * 256 + 1 * f.val = f.val; omega

/-- Rows (p, k) of the neighbour block at point t are the neighbours of node 256 t + p. -/
theorem blk_nb (c : Dev nD) (t : Fin cfg0.N) (p : Fin 256) (k : Fin 16) (f : Fin 256) (b : Fin 8192)
    (hb : b.val = t.val * 256 + p.val) :
    iblk m c 1 t (ix3 p k f) = m ((c : Thread nD τ).loc main_arg1) (ix3 b k f) := by
  show V m c main_arg1 (((cfg0.win 1).blk t).view.emb (ix3 p k f)) = _
  rw [V_main_arg1]
  refine congrArg _ (funext fun a => Fin.ext ?_)
  obtain ⟨-, -, e0, e1, e2, -⟩ := idx_facts t
  match a with
  | ⟨0, _⟩ => show win0_1.index t (0 : Fin 3) * 256 + 1 * p.val = b.val; omega
  | ⟨1, _⟩ => show win0_1.index t (1 : Fin 3) * 16 + 1 * k.val = k.val; omega
  | ⟨2, _⟩ => show win0_1.index t (2 : Fin 3) * 256 + 1 * f.val = f.val; omega

/-- Entry (p, j) of the first result's block at point t is entry (256 t + p, j) of the array. -/
theorem emb4 (t : Fin cfg0.N) (p j : Fin 256) (b : Fin 8192) (hb : b.val = t.val * 256 + p.val) :
    ((cfg0.win 4).blk t).view.emb (ix2 p j) = (ix2 b j : S8192x256.Idx) := by
  funext a; apply Fin.ext
  obtain ⟨-, -, -, -, -, -, -, -, -, e0, e1, -⟩ := idx_facts t
  match a with
  | ⟨0, _⟩ => show win0_4.index t (0 : Fin 2) * 256 + 1 * p.val = b.val; omega
  | ⟨1, _⟩ => show win0_4.index t (1 : Fin 2) * 256 + 1 * j.val = j.val; omega

/-- Entry (p, k, j) of the second result's block at point t is entry (256 t + p, k, j) of the array. -/
theorem emb5 (t : Fin cfg0.N) (p : Fin 256) (k : Fin 16) (j : Fin 256) (b : Fin 8192) (hb : b.val = t.val * 256 + p.val) :
    ((cfg0.win 5).blk t).view.emb (ix3 p k j) = (ix3 b k j : S8192x16x256.Idx) := by
  funext a; apply Fin.ext
  obtain ⟨-, -, -, -, -, -, -, -, -, -, -, e0, e1, e2⟩ := idx_facts t
  match a with
  | ⟨0, _⟩ => show win0_5.index t (0 : Fin 3) * 256 + 1 * p.val = b.val; omega
  | ⟨1, _⟩ => show win0_5.index t (1 : Fin 3) * 16 + 1 * k.val = k.val; omega
  | ⟨2, _⟩ => show win0_5.index t (2 : Fin 3) * 256 + 1 * j.val = j.val; omega

/-- What point t writes back to the first result is block t of the sum, over a node's sixteen neighbours, of their
    projected rows: the weights of the expansion matrix's column p select the sixteen merged rows 16 p, …, 16 p + 15. -/
theorem flushed4_eq (c : Dev nD) (t : Fin cfg0.N) :
    (dats m 0 c).flushed 4 t = ((cfg0.win 4).blk t).view.read (Elt Ideal)
      (aggred (m ((c : Thread nD τ).loc main_arg1)) (m ((c : Thread nD τ).loc main_arg2))) := by
  rw [Cert.KernelIdeal.Value.flushed4]
  unfold out0_4
  rw [View.canon_unit_zero hz2]
  simp only [View.ld_unit_zero (S := S256x256) hz2, View.ld_unit_zero (S := S4096x256) hz2,
    View.ld_unit_zero (S := S256x16x256) hz3]
  rw [blk_w m c t, blk_E m c t]
  funext y
  obtain ⟨p, j, rfl⟩ : ∃ (p : Fin 256) (j : Fin 256), y = ix2 p j := ⟨y 0, y 1, eq_ix2 y⟩
  have hN : grid0.N = 32 := N_0
  have ht : t.val < grid0.N := t.isLt
  show k0_pay4 (F := Ideal) (m ((c : Thread nD τ).loc main_arg2)) expand (iblk m c 1 t) (ix2 p j)
    = aggred (m ((c : Thread nD τ).loc main_arg1)) (m ((c : Thread nD τ).loc main_arg2))
        (((cfg0.win 4).blk t).view.emb (ix2 p j))
  rw [emb4 t p j (⟨t.val * 256 + p.val, by omega⟩ : Fin 8192) rfl]
  refine (point_agg _ _ p j).trans ?_
  unfold aggred nproj
  refine Finset.sum_congr rfl fun k _ => Finset.sum_congr rfl fun f _ => ?_
  rw [blk_nb m c t p k f (⟨t.val * 256 + p.val, by omega⟩ : Fin 8192) rfl]

/-- What point t writes back to the second result is block t of "the node's projected row plus the neighbour's projected
    row": row 16 p + k of the expansion matrix selects node p's projected row. -/
theorem flushed5_eq (c : Dev nD) (t : Fin cfg0.N) :
    (dats m 0 c).flushed 5 t = ((cfg0.win 5).blk t).view.read (Elt Ideal)
      (neighborOut (m ((c : Thread nD τ).loc main_arg0)) (m ((c : Thread nD τ).loc main_arg1))
        (m ((c : Thread nD τ).loc main_arg2))) := by
  rw [Cert.KernelIdeal.Value.flushed5]
  unfold out0_5
  rw [View.canon_unit_zero hz3]
  simp only [View.ld_unit_zero (S := S256x256) hz2, View.ld_unit_zero (S := S4096x256) hz2,
    View.ld_unit_zero (S := S256x16x256) hz3]
  rw [blk_w m c t, blk_E m c t]
  funext y
  obtain ⟨p, k, j, rfl⟩ : ∃ (p : Fin 256) (k : Fin 16) (j : Fin 256), y = ix3 p k j := ⟨y 0, y 1, y 2, eq_ix3 y⟩
  have hN : grid0.N = 32 := N_0
  have ht : t.val < grid0.N := t.isLt
  show k0_pay3 (F := Ideal) (m ((c : Thread nD τ).loc main_arg2)) expand (iblk m c 1 t) (iblk m c 0 t) (ix3 p k j)
    = neighborOut (m ((c : Thread nD τ).loc main_arg0)) (m ((c : Thread nD τ).loc main_arg1))
        (m ((c : Thread nD τ).loc main_arg2)) (((cfg0.win 5).blk t).view.emb (ix3 p k j))
  rw [emb5 t p k j (⟨t.val * 256 + p.val, by omega⟩ : Fin 8192) rfl]
  refine (point_out _ _ _ p k j).trans ?_
  unfold neighborOut proj nproj
  refine congrArg₂ (· + ·) ?_ ?_
  · refine Finset.sum_congr rfl fun f _ => ?_
    rw [blk_x m c t p f (⟨t.val * 256 + p.val, by omega⟩ : Fin 8192) rfl]
  · refine Finset.sum_congr rfl fun f _ => ?_
    rw [blk_nb m c t p k f (⟨t.val * 256 + p.val, by omega⟩ : Fin 8192) rfl]

/-- An index of the first result is in point t's block iff its row is among 256 t, …, 256 t + 255. -/
theorem mem_blk4 (t : Fin cfg0.N) (i : S8192x256.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v0_0).slice (win0_4.rect t)).set ↔ _
  rw [View.set_slice_whole, Rect.mem_set_unit]
  exact Iff.rfl

/-- The same for the second result. -/
theorem mem_blk5 (t : Fin cfg0.N) (i : S8192x16x256.Idx) :
    i ∈ ((cfg0.win 5).blk t).view.set ↔ ∀ a : Fin 3, win0_5.index t a * S256x16x256.size a ≤ (i a).val
      ∧ (i a).val < win0_5.index t a * S256x16x256.size a + S256x16x256.size a := by
  show i ∈ ((View.whole main_v0_1).slice (win0_5.rect t)).set ↔ _
  rw [View.set_slice_whole, Rect.mem_set_unit]
  exact Iff.rfl

/-- Row b of the first result lies in the block of point b / 256. -/
theorem cover4 (i : S8192x256.Idx) :
    ∃ t : Fin cfg0.N, (cfg0.win 4).flush t = true ∧ i ∈ ((cfg0.win 4).blk t).view.set := by
  have h0 : (i 0).val < 8192 := (i 0).isLt
  have h1 : (i 1).val < 256 := (i 1).isLt
  have hlt : (i 0).val / 256 < grid0.N := by rw [N_0]; omega
  refine ⟨⟨(i 0).val / 256, hlt⟩, flush0_4 _, ?_⟩
  rw [mem_blk4]
  obtain ⟨-, -, -, -, -, -, -, -, -, e0, e1, -⟩ := idx_facts ⟨(i 0).val / 256, hlt⟩
  intro a
  match a with
  | ⟨0, _⟩ =>
    show win0_4.index ⟨(i 0).val / 256, hlt⟩ (0 : Fin 2) * 256 ≤ (i 0).val
      ∧ (i 0).val < win0_4.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, hlt⟩ (1 : Fin 2) * 256 ≤ (i 1).val
      ∧ (i 1).val < win0_4.index ⟨(i 0).val / 256, hlt⟩ (1 : Fin 2) * 256 + 256
    rw [e1]; omega

/-- Row b of the second result lies in the block of point b / 256. -/
theorem cover5 (i : S8192x16x256.Idx) :
    ∃ t : Fin cfg0.N, (cfg0.win 5).flush t = true ∧ i ∈ ((cfg0.win 5).blk t).view.set := by
  have h0 : (i 0).val < 8192 := (i 0).isLt
  have h1 : (i 1).val < 16 := (i 1).isLt
  have h2 : (i 2).val < 256 := (i 2).isLt
  have hlt : (i 0).val / 256 < grid0.N := by rw [N_0]; omega
  refine ⟨⟨(i 0).val / 256, hlt⟩, flush0_5 _, ?_⟩
  rw [mem_blk5]
  obtain ⟨-, -, -, -, -, -, -, -, -, -, -, e0, e1, e2⟩ := idx_facts ⟨(i 0).val / 256, hlt⟩
  intro a
  match a with
  | ⟨0, _⟩ =>
    show win0_5.index ⟨(i 0).val / 256, hlt⟩ (0 : Fin 3) * 256 ≤ (i 0).val
      ∧ (i 0).val < win0_5.index ⟨(i 0).val / 256, hlt⟩ (0 : Fin 3) * 256 + 256
    rw [e0]; show (i 0).val / 256 * 256 ≤ (i 0).val ∧ (i 0).val < (i 0).val / 256 * 256 + 256; omega
  | ⟨1, _⟩ =>
    show win0_5.index ⟨(i 0).val / 256, hlt⟩ (1 : Fin 3) * 16 ≤ (i 1).val
      ∧ (i 1).val < win0_5.index ⟨(i 0).val / 256, hlt⟩ (1 : Fin 3) * 16 + 16
    rw [e1]; omega
  | ⟨2, _⟩ =>
    show win0_5.index ⟨(i 0).val / 256, hlt⟩ (2 : Fin 3) * 256 ≤ (i 2).val
      ∧ (i 2).val < win0_5.index ⟨(i 0).val / 256, hlt⟩ (2 : Fin 3) * 256 + 256
    rw [e2]; omega

/-- After the run the first result array is the neighbour aggregate of the argument arrays. -/
theorem final4 (c : Dev nD) : (dats m 0 c).arrAt 4 cfg0.N
    = aggred (m ((c : Thread nD τ).loc main_arg1)) (m ((c : Thread nD τ).loc main_arg2)) :=
  (dats m 0 c).arrAt_eq_of_cover 4 _ (fun t _ => flushed4_eq m c t) cover4

/-- After the run the second result array is, per node and neighbour, the sum of the two projected rows. -/
theorem final5 (c : Dev nD) : (dats m 0 c).arrAt 5 cfg0.N
    = neighborOut (m ((c : Thread nD τ).loc main_arg0)) (m ((c : Thread nD τ).loc main_arg1))
        (m ((c : Thread nD τ).loc main_arg2)) :=
  (dats m 0 c).arrAt_eq_of_cover 5 _ (fun t _ => flushed5_eq m c t) cover5

/-- The kernel's run: both result arrays at the graph convolution of the argument arrays, the arguments unchanged. -/
theorem run : θ_run defs (onTc (τ := τ) (main (F := Ideal))) ⟨m, fun _ => 0, ρ⟩ fun r => ∀ c : Dev nD,
      r.2.mem ((c : Thread nD τ).loc main_v0_0)
        = aggred (m ((c : Thread nD τ).loc main_arg1)) (m ((c : Thread nD τ).loc main_arg2))
      ∧ r.2.mem ((c : Thread nD τ).loc main_v0_1)
        = neighborOut (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩)
    (Cert.KernelIdeal.Value.run_blocks m ρ)

end Cert.KerSide

end
-- ==== Proof.RefPayload.lean ====
/-
  The arithmetic of one grid point of the reference's graph-convolution body, read at an index.

  The body multiplies the node block and each of the sixteen neighbour slabs by the weight matrix; it stores, per slab,
  the node block's product plus the slab's product, and it stores the sum of the sixteen slab products, added up from
  the first slab to the last.  Here every store's value is brought to one of two common forms and each form is read at
  an index as sums over the 256 contracted coordinates.
-/
import proofs.«118732_g2000104578353512_pallasbulk_618_15_alg».proof.Proof.Gen.ReferenceIdeal.Frame
import proofs.«118732_g2000104578353512_pallasbulk_618_15_alg».proof.Proof.LibRowOps
import proofs.«118732_g2000104578353512_pallasbulk_618_15_alg».proof.Proof.Spec

noncomputable section

open scoped BigOperators

namespace Cert.RefSide

open Idealize.ShloMosaic Idealize.ShloMosaic.ValueIdx Cert.ReferenceIdeal Cert.ReferenceIdeal.Gen

/-- A 512 × 256 block times the weight matrix, accumulated into zero. -/
def blockMul (w : FVec Ideal S256x256 .f32) (v : FVec Ideal S512x256 .f32) : FVec Ideal S512x256 .f32 :=
  matmul (F := Ideal) dot_S512x256_S256x256_S512x256_1_0_0_1_n_n none v w (constant (F := Ideal) S512x256 .f32 0x00000000#32)

/-- One neighbour slab, a [1, 512, 256] piece, read as a 512 × 256 block and multiplied by the weight matrix. -/
def slabMul (w : FVec Ideal S256x256 .f32) (v : FVec Ideal S1x512x256 .f32) : FVec Ideal S512x256 .f32 :=
  blockMul w (shapeCast S512x256 v shapeCasts_S1x512x256_S512x256)

/-- What is stored for one slab: the node block's product plus the slab's product, as a [1, 512, 256] piece. -/
def slabOut (w : FVec Ideal S256x256 .f32) (xw : FVec Ideal S512x256 .f32) (v : FVec Ideal S1x512x256 .f32) : FVec Ideal S1x512x256 .f32 :=
  shapeCast S1x512x256 (addf xw (slabMul w v)) shapeCasts_S512x256_S1x512x256

/-- The block product at (p, q): row p of the block against column q of the weight matrix. -/
theorem blockMul_apply (w : FVec Ideal S256x256 .f32) (v : FVec Ideal S512x256 .f32) (p : Fin 512) (q : Fin 256) :
    blockMul w v (ix2 p q) = ∑ f : Fin 256, v (ix2 p f) * w (ix2 f q) := by
  unfold blockMul
  rw [Cert.RowLib.dotDims_eq_plain dot_S512x256_S256x256_S512x256_1_0_0_1_n_n rfl rfl rfl rfl rfl rfl]
  exact Cert.RowLib.matmul_plain_zero_ix2 none v w p q

/-- The slab product at (p, q): row p of the slab against column q of the weight matrix. -/
theorem slabMul_apply (w : FVec Ideal S256x256 .f32) (v : FVec Ideal S1x512x256 .f32) (p : Fin 512) (q : Fin 256) :
    slabMul w v (ix2 p q) = ∑ f : Fin 256, v (ix3 (0 : Fin 1) p f) * w (ix2 f q) := by
  unfold slabMul
  rw [blockMul_apply]
  refine Finset.sum_congr rfl fun f _ => ?_
  rw [shapeCast_1ab_ab_apply]

/-- The stored slab piece at (u, p, q). -/
theorem slabOut_apply (w : FVec Ideal S256x256 .f32) (xw : FVec Ideal S512x256 .f32) (v : FVec Ideal S1x512x256 .f32)
    (u : Fin 1) (p : Fin 512) (q : Fin 256) :
    slabOut w xw v (ix3 u p q) = xw (ix2 p q) + ∑ f : Fin 256, v (ix3 (0 : Fin 1) p f) * w (ix2 f q) := by
  unfold slabOut
  rw [shapeCast_ab_1ab_apply, addf_apply, slabMul_apply]

/-! ## The sixteen slab stores, each in the common form -/

section Forms
variable (w : FVec Ideal S256x256 .f32) (x : FVec Ideal S512x256 .f32) (v : FVec Ideal S1x512x256 .f32)

theorem pay7_form : k0_pay7 (F := Ideal) w x v = slabOut w (blockMul w x) v := by rfl
theorem pay9_form : k0_pay9 (F := Ideal) w x v = slabOut w (blockMul w x) v := by rfl
theorem pay12_form : k0_pay12 (F := Ideal) w x v = slabOut w (blockMul w x) v := by rfl
theorem pay14_form : k0_pay14 (F := Ideal) w (k0_pay5 w x) v = slabOut w (blockMul w x) v := by rfl
theorem pay16_form : k0_pay16 (F := Ideal) w (k0_pay5 w x) v = slabOut w (blockMul w x) v := by rfl
theorem pay18_form : k0_pay18 (F := Ideal) w (k0_pay5 w x) v = slabOut w (blockMul w x) v := by rfl
theorem pay21_form : k0_pay21 (F := Ideal) w (k0_pay5 w x) v = slabOut w (blockMul w x) v := by rfl
theorem pay23_form : k0_pay23 (F := Ideal) w (k0_pay5 w x) v = slabOut w (blockMul w x) v := by rfl
theorem pay25_form : k0_pay25 (F := Ideal) w (k0_pay5 w x) v = slabOut w (blockMul w x) v := by rfl
theorem pay27_form : k0_pay27 (F := Ideal) w (k0_pay5 w x) v = slabOut w (blockMul w x) v := by rfl
theorem pay31_form : k0_pay31 (F := Ideal) (k0_pay30 w (k0_pay5 w x) v) = slabOut w (blockMul w x) v := by rfl
theorem pay33_form : k0_pay33 (F := Ideal) w (k0_pay5 w x) v = slabOut w (blockMul w x) v := by rfl
theorem pay35_form : k0_pay35 (F := Ideal) w (k0_pay5 w x) v = slabOut w (blockMul w x) v := by rfl
theorem pay37_form : k0_pay37 (F := Ideal) w (k0_pay5 w x) v = slabOut w (blockMul w x) v := by rfl
theorem pay1_form : k0_pay1 (F := Ideal) (k0_pay5 w x) (k0_pay38 w v) = slabOut w (blockMul w x) v := by rfl
theorem pay4_form : k0_pay4 (F := Ideal) w (k0_pay5 w x) v = slabOut w (blockMul w x) v := by rfl

end Forms

/-! ## The store of the sum over the slabs -/

/-- The sixteen slab products added up from the first to the last. -/
def slabSum (w : FVec Ideal S256x256 .f32) (v : Fin 16 → FVec Ideal S1x512x256 .f32) : FVec Ideal S512x256 .f32 :=
  addf (addf (addf (addf (addf (addf (addf (addf (addf (addf (addf (addf (addf (addf (addf
    (slabMul w (v 0)) (slabMul w (v 1))) (slabMul w (v 2))) (slabMul w (v 3))) (slabMul w (v 4))) (slabMul w (v 5)))
    (slabMul w (v 6))) (slabMul w (v 7))) (slabMul w (v 8))) (slabMul w (v 9))) (slabMul w (v 10))) (slabMul w (v 11)))
    (slabMul w (v 12))) (slabMul w (v 13))) (slabMul w (v 14))) (slabMul w (v 15))

/-- The value stored to the first output is that sum of the slabs the body loaded. -/
theorem sum_form (w : FVec Ideal S256x256 .f32)
    (v0 v1 v2 v3 v4 v5 v6 v7 v8 v9 v10 v11 v12 v13 v14 v15 : FVec Ideal S1x512x256 .f32) :
    k0_pay3 (F := Ideal) w (k0_pay39 w (k0_pay29 w (k0_pay20 w (k0_pay11 w v0 v1 v2) v3 v4 v5 v6) v7 v8 v9 v10) v11 v12 v13 v14) v15
      = slabSum w ![v0, v1, v2, v3, v4, v5, v6, v7, v8, v9, v10, v11, v12, v13, v14, v15] := by rfl

/-- A sum over sixteen terms, written out from the first term to the last. -/
theorem sum_sixteen {M : Type} [AddCommMonoid M] (g : Fin 16 → M) :
    ∑ k : Fin 16, g k = g 0 + g 1 + g 2 + g 3 + g 4 + g 5 + g 6 + g 7 + g 8 + g 9 + g 10 + g 11 + g 12 + g 13 + g 14 + g 15 := by
  simp only [Fin.sum_univ_castSucc, Fin.sum_univ_zero, zero_add]
  rfl

/-- The sum of the slab products at (p, q): over the sixteen slabs, row p of the slab against column q of the matrix. -/
theorem slabSum_apply (w : FVec Ideal S256x256 .f32) (v : Fin 16 → FVec Ideal S1x512x256 .f32) (p : Fin 512) (q : Fin 256) :
    slabSum w v (ix2 p q) = ∑ k : Fin 16, ∑ f : Fin 256, v k (ix3 (0 : Fin 1) p f) * w (ix2 f q) := by
  unfold slabSum
  simp only [addf_apply, slabMul_apply]
  exact (sum_sixteen fun k => ∑ f : Fin 256, v k (ix3 (0 : Fin 1) p f) * w (ix2 f q)).symm

end Cert.RefSide

end
-- ==== Proof.RefBlocks.lean ====
/-
  What one grid point of the reference's body leaves in its two output blocks, entry by entry.

  The second output block [16, 512, 256] is written by sixteen stores, one [1, 512, 256] slab each; all sixteen are
  tiles of one function of the block's index: at (s, p, q) the node block's product at (p, q) plus slab s's product at
  (p, q).  The first output block [512, 256] is written by one store of the sum of the sixteen slab products.
-/
import proofs.«118732_g2000104578353512_pallasbulk_618_15_alg».proof.Proof.RefPayload

noncomputable section

open scoped BigOperators

namespace Cert.RefSide

open Idealize.ShloMosaic Idealize.ShloMosaic.ValueIdx Cert.ReferenceIdeal Cert.ReferenceIdeal.Gen

theorem zero2 : (![0, 0] : Fin 2 → Nat) = fun _ => 0 := funext fun a => by fin_cases a <;> rfl

/-- Slab k of the neighbour block fits in it. -/
theorem slab_inb (k : Fin 16) : ∀ a, (![k.val, 0, 0] : Fin 3 → Nat) a + S1x512x256.size a ≤ S16x512x256.size a := by
  intro a
  have := k.isLt
  match a with
  | ⟨0, _⟩ => show k.val + 1 ≤ 16; omega
  | ⟨1, _⟩ => show 0 + 512 ≤ 512; omega
  | ⟨2, _⟩ => show 0 + 256 ≤ 256; omega

/-- Slab k of a [16, 512, 256] block: the [1, 512, 256] rectangle at offset (k, 0, 0). -/
abbrev slabRect (k : Fin 16) : Rect S16x512x256 := Rect.unit (s := S16x512x256) ![k.val, 0, 0] S1x512x256.size (slab_inb k)

/-- Entry (u, p, q) of slab k is entry (k, p, q) of the block. -/
theorem slabRect_emb (k : Fin 16) (u : Fin 1) (p : Fin 512) (q : Fin 256) :
    (slabRect k).emb (ix3 u p q) = ix3 k p q := by
  funext a
  apply Fin.ext
  have hu : u.val = 0 := by omega
  match a with
  | ⟨0, _⟩ => show k.val + 1 * u.val = k.val; omega
  | ⟨1, _⟩ => show 0 + 1 * p.val = p.val; omega
  | ⟨2, _⟩ => show 0 + 1 * q.val = q.val; omega

/-- A load of slab k reads the block's entries with first coordinate k. -/
theorem ld_slab (x1 : FVec Ideal S16x512x256 .f32) (k : Fin 16) (u : Fin 1) (p : Fin 512) (q : Fin 256) :
    View.ld (Val := Elt Ideal) (e' := .f32) x1 (slabRect k) (ix3 u p q) = x1 (ix3 k p q) := by
  show x1 ((slabRect k).emb (ix3 u p q)) = _
  rw [slabRect_emb]

/-- The second output block after the body, as one function of the block's index. -/
def neighborBlock (x0 : FVec Ideal S512x256 .f32) (x1 : FVec Ideal S16x512x256 .f32) (x2 : FVec Ideal S256x256 .f32) :
    FVec Ideal S16x512x256 .f32 :=
  fun y => (∑ f : Fin 256, x0 (ix2 (y 1) f) * x2 (ix2 f (y 2))) + ∑ f : Fin 256, x1 (ix3 (y 0) (y 1) f) * x2 (ix2 f (y 2))

/-- The store of slab k writes the tile of that function under slab k's rectangle. -/
theorem slab_piece (x0 : FVec Ideal S512x256 .f32) (x1 : FVec Ideal S16x512x256 .f32) (x2 : FVec Ideal S256x256 .f32)
    (k : Fin 16) (x : S1x512x256.Idx) :
    slabOut x2 (blockMul x2 x0) (View.ld (Val := Elt Ideal) (e' := .f32) x1 (slabRect k)) x = neighborBlock x0 x1 x2 ((slabRect k).emb x) := by
  obtain ⟨u, p, q, rfl⟩ : ∃ (u : Fin 1) (p : Fin 512) (q : Fin 256), x = ix3 u p q := ⟨x 0, x 1, x 2, eq_ix3 x⟩
  rw [slabOut_apply, blockMul_apply, slabRect_emb]
  show _ = (∑ f : Fin 256, x0 (ix2 p f) * x2 (ix2 f q)) + ∑ f : Fin 256, x1 (ix3 k p f) * x2 (ix2 f q)
  refine congrArg _ (Finset.sum_congr rfl fun f _ => ?_)
  rw [ld_slab]

/-- The second output block after the body is that function. -/
theorem out0_4_eq (x0 : FVec Ideal S512x256 .f32) (x1 : FVec Ideal S16x512x256 .f32) (x2 : FVec Ideal S256x256 .f32) :
    out0_4 (F := Ideal) x0 x1 x2 = neighborBlock x0 x1 x2 := by
  funext y
  unfold out0_4
  simp only [View.ld_unit_zero (S := S256x256) zero2, View.ld_unit_zero (S := S512x256) zero2]
  refine View.canon_apply_of_pieces (Val := Elt Ideal) (e := .f32) (neighborBlock x0 x1 x2) _ ?_ y (cover0_4 _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl <;> intro x
  exacts [slab_piece x0 x1 x2 15 x, slab_piece x0 x1 x2 14 x, slab_piece x0 x1 x2 13 x, slab_piece x0 x1 x2 12 x,
    slab_piece x0 x1 x2 11 x, slab_piece x0 x1 x2 10 x, slab_piece x0 x1 x2 9 x, slab_piece x0 x1 x2 8 x,
    slab_piece x0 x1 x2 7 x, slab_piece x0 x1 x2 6 x, slab_piece x0 x1 x2 5 x, slab_piece x0 x1 x2 4 x,
    slab_piece x0 x1 x2 3 x, slab_piece x0 x1 x2 2 x, slab_piece x0 x1 x2 1 x, slab_piece x0 x1 x2 0 x]

/-- The first output block after the body, as one function of the block's index: the sum over the sixteen slabs. -/
def sumBlock (x1 : FVec Ideal S16x512x256 .f32) (x2 : FVec Ideal S256x256 .f32) : FVec Ideal S512x256 .f32 :=
  fun y => ∑ k : Fin 16, ∑ f : Fin 256, x1 (ix3 k (y 0) f) * x2 (ix2 f (y 1))

/-- The value stored to the first output is the sum of the products of the sixteen slabs, in the slabs' order. -/
theorem sum_form' (w : FVec Ideal S256x256 .f32) (x1 : FVec Ideal S16x512x256 .f32) :
    k0_pay3 (F := Ideal) w (k0_pay39 w (k0_pay29 w (k0_pay20 w (k0_pay11 w (View.ld (Val := Elt Ideal) (e' := .f32) x1 r0_2) (View.ld (Val := Elt Ideal) (e' := .f32) x1 r0_3) (View.ld (Val := Elt Ideal) (e' := .f32) x1 r0_4))
      (View.ld (Val := Elt Ideal) (e' := .f32) x1 r0_5) (View.ld (Val := Elt Ideal) (e' := .f32) x1 r0_6) (View.ld (Val := Elt Ideal) (e' := .f32) x1 r0_7) (View.ld (Val := Elt Ideal) (e' := .f32) x1 r0_8)) (View.ld (Val := Elt Ideal) (e' := .f32) x1 r0_9) (View.ld (Val := Elt Ideal) (e' := .f32) x1 r0_10) (View.ld (Val := Elt Ideal) (e' := .f32) x1 r0_11) (View.ld (Val := Elt Ideal) (e' := .f32) x1 r0_12))
      (View.ld (Val := Elt Ideal) (e' := .f32) x1 r0_13) (View.ld (Val := Elt Ideal) (e' := .f32) x1 r0_14) (View.ld (Val := Elt Ideal) (e' := .f32) x1 r0_15) (View.ld (Val := Elt Ideal) (e' := .f32) x1 r0_16)) (View.ld (Val := Elt Ideal) (e' := .f32) x1 r0_17)
      = slabSum w fun k => View.ld (Val := Elt Ideal) (e' := .f32) x1 (slabRect k) := by rfl

/-- The first output block after the body is that function. -/
theorem out0_3_eq (x0 : FVec Ideal S512x256 .f32) (x1 : FVec Ideal S16x512x256 .f32) (x2 : FVec Ideal S256x256 .f32) :
    out0_3 (F := Ideal) x0 x1 x2 = sumBlock x1 x2 := by
  unfold out0_3
  rw [View.canon_unit_zero zero2]
  simp only [View.ld_unit_zero (S := S256x256) zero2]
  rw [sum_form']
  funext y
  obtain ⟨p, q, rfl⟩ : ∃ (p : Fin 512) (q : Fin 256), y = ix2 p q := ⟨y 0, y 1, eq_ix2 y⟩
  rw [slabSum_apply]
  show _ = ∑ k : Fin 16, ∑ f : Fin 256, x1 (ix3 k p f) * x2 (ix2 f q)
  refine Finset.sum_congr rfl fun k _ => Finset.sum_congr rfl fun f _ => ?_
  rw [ld_slab]

end Cert.RefSide

end
-- ==== Proof.RefArrays.lean ====
/-
  From the blocks of one grid point to the whole arrays.

  Grid point t handles nodes 512 t … 512 t + 511.  Its node block is those rows of the node features; its neighbour
  block is, slab by slab, those rows of the neighbour features with the node and neighbour axes exchanged (the
  program transposes the neighbour features before the region); its weight block is the whole matrix.  So what point t
  writes back is block t of one function of the argument arrays, for each of the two outputs, and the sixteen blocks
  tile each output array.
-/
import proofs.«118732_g2000104578353512_pallasbulk_618_15_alg».proof.Proof.RefBlocks

noncomputable section

open scoped BigOperators

namespace Cert.RefSide

open Idealize.ShloMosaic Idealize.ShloMosaic.ValueIdx Cert.ReferenceIdeal Cert.ReferenceIdeal.Gen Idealize.ShloMosaic.TcCoe Idealize.SL.Sem

open Idealize.ShloMosaic.Pipeline (Dat)

/-- The second output with the node and neighbour axes exchanged, as the region writes it: at (k, b, j) the node's
    projected row plus its k-th neighbour's projected row, at entry j. -/
def neighborOutT (x : FVec Ideal Cert.GraphConv.SX .f32) (n : FVec Ideal Cert.GraphConv.SN .f32) (w : FVec Ideal Cert.GraphConv.SW .f32) :
    FVec Ideal S16x8192x256 .f32 :=
  fun i => Cert.GraphConv.proj x w (i 1) (i 2) + Cert.GraphConv.nproj n w (i 1) (i 0) (i 2)

/-- If row p of every slab of a neighbour block is node r's neighbour rows, and the weight block's column q is the
    matrix's, the block's sum over the slabs at (p, q) is the first result at (r, q). -/
theorem sumBlock_at (x1 : FVec Ideal S16x512x256 .f32) (x2 : FVec Ideal S256x256 .f32)
    (n : FVec Ideal Cert.GraphConv.SN .f32) (w : FVec Ideal Cert.GraphConv.SW .f32) (r : Fin 8192) (p : Fin 512) (q : Fin 256)
    (h1 : ∀ (k : Fin 16) (f : Fin 256), x1 (ix3 k p f) = n (ix3 r k f)) (h2 : ∀ f : Fin 256, x2 (ix2 f q) = w (ix2 f q)) :
    sumBlock x1 x2 (ix2 p q) = Cert.GraphConv.aggred n w (ix2 r q) := by
  show (∑ k : Fin 16, ∑ f : Fin 256, x1 (ix3 k p f) * x2 (ix2 f q)) = ∑ k : Fin 16, ∑ f : Fin 256, n (ix3 r k f) * w (ix2 f q)
  exact Finset.sum_congr rfl fun k _ => Finset.sum_congr rfl fun f _ => by rw [h1, h2]

/-- The same for the second output's block: at (k, p, q) it is the exchanged second result at (k, r, q). -/
theorem neighborBlock_at (x0 : FVec Ideal S512x256 .f32) (x1 : FVec Ideal S16x512x256 .f32) (x2 : FVec Ideal S256x256 .f32)
    (x : FVec Ideal Cert.GraphConv.SX .f32) (n : FVec Ideal Cert.GraphConv.SN .f32) (w : FVec Ideal Cert.GraphConv.SW .f32)
    (r : Fin 8192) (k : Fin 16) (p : Fin 512) (q : Fin 256)
    (h0 : ∀ f : Fin 256, x0 (ix2 p f) = x (ix2 r f)) (h1 : ∀ f : Fin 256, x1 (ix3 k p f) = n (ix3 r k f))
    (h2 : ∀ f : Fin 256, x2 (ix2 f q) = w (ix2 f q)) :
    neighborBlock x0 x1 x2 (ix3 k p q) = neighborOutT x n w (ix3 k r q) := by
  show (∑ f : Fin 256, x0 (ix2 p f) * x2 (ix2 f q)) + ∑ f : Fin 256, x1 (ix3 k p f) * x2 (ix2 f q)
    = (∑ f : Fin 256, x (ix2 r f) * w (ix2 f q)) + ∑ f : Fin 256, n (ix3 r k f) * w (ix2 f q)
  refine congrArg₂ (· + ·) (Finset.sum_congr rfl fun f _ => ?_) (Finset.sum_congr rfl fun f _ => ?_)
  · rw [h0, h2]
  · rw [h1, h2]

variable (m : (ℓ : Loc nD τ sig) → Buf (Elt Ideal) ℓ) (ρ : Dev nD → PrngReg)

/-- The node a grid point's block row stands for. -/
def rowOf (t : Fin cfg0.N) (p : Fin 512) : Fin 8192 :=
  ⟨t.val * 512 + p.val, by have := t.isLt; have hN : cfg0.N = 16 := N_0; have := p.isLt; omega⟩

/-! ## The index maps over the grid -/

/-- The printed index maps, decided over the sixteen points: every window's block index along the node axis is the
    point's number and zero elsewhere. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-! ## The arrays the region finds -/

/-- The neighbour window's array is the neighbour features with the first two axes exchanged. -/
theorem V_main_v0 (c : Dev nD) :
    (V m c main_v0 : S16x8192x256.Idx → Elt Ideal .f32)
      = transpose S16x8192x256 [1, 0, 2] (m ((c : Thread nD τ).loc main_arg1)) transposes_S8192x16x256_S16x8192x256_1_0_2 := by
  show StableHlo.after hostOps0 (fun b => m (c, b)) (Proc.devRef .tc main_v0) = _
  after_results

/-- That array at (k, b, f) is the neighbour features at (b, k, f). -/
theorem V_main_v0_apply (c : Dev nD) (k : Fin 16) (b : Fin 8192) (f : Fin 256) :
    (V m c main_v0 : S16x8192x256.Idx → Elt Ideal .f32) (ix3 k b f)
      = (m ((c : Thread nD τ).loc main_arg1) : S8192x16x256.Idx → Elt Ideal .f32) (ix3 b k f) := by
  rw [V_main_v0]
  exact transpose_apply _ _ _ _ (ix3 b k f) fun a => by
    match a with
    | ⟨0, _⟩ => rfl
    | ⟨1, _⟩ => rfl
    | ⟨2, _⟩ => rfl

/-! ## The input blocks at a point -/

/-- The node block at point t, entry (p, f): the node features at (512 t + p, f). -/
theorem iblk0_apply (c : Dev nD) (t : Fin cfg0.N) (p : Fin 512) (f : Fin 256) :
    (iblk m c 0 t : Vec Ideal S512x256 .f32) (ix2 p f)
      = (m ((c : Thread nD τ).loc main_arg0) : S8192x256.Idx → Elt Ideal .f32) (ix2 (rowOf t p) f) := by
  obtain ⟨e0, e1, -⟩ := idx_facts t
  show V m c main_arg0 (((cfg0.win 0).blk t).view.emb (ix2 p f)) = _
  rw [V_main_arg0]
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 256 + 1 * f.val = f.val; rw [e1]; omega

/-- The neighbour block at point t, entry (k, p, f): the neighbour features at (512 t + p, k, f). -/
theorem iblk1_apply (c : Dev nD) (t : Fin cfg0.N) (k : Fin 16) (p : Fin 512) (f : Fin 256) :
    (iblk m c 1 t : Vec Ideal S16x512x256 .f32) (ix3 k p f)
      = (m ((c : Thread nD τ).loc main_arg1) : S8192x16x256.Idx → Elt Ideal .f32) (ix3 (rowOf t p) k f) := by
  obtain ⟨-, -, e0, e1, e2, -⟩ := idx_facts t
  show V m c main_v0 (((cfg0.win 1).blk t).view.emb (ix3 k p f)) = _
  have h : ((cfg0.win 1).blk t).view.emb (ix3 k p f) = (ix3 k (rowOf t p) f : S16x8192x256.Idx) := by
    funext a
    apply Fin.ext
    match a with
    | ⟨0, _⟩ => show win0_1.index t (0 : Fin 3) * 16 + 1 * k.val = k.val; rw [e0]; omega
    | ⟨1, _⟩ => show win0_1.index t (1 : Fin 3) * 512 + 1 * p.val = t.val * 512 + p.val; rw [e1]; omega
    | ⟨2, _⟩ => show win0_1.index t (2 : Fin 3) * 256 + 1 * f.val = f.val; rw [e2]; omega
  rw [h]
  exact V_main_v0_apply m c k (rowOf t p) f

/-- The weight block at every point is the weight matrix. -/
theorem iblk2_apply (c : Dev nD) (t : Fin cfg0.N) (f : Fin 256) (q : Fin 256) :
    (iblk m c 2 t : Vec Ideal S256x256 .f32) (ix2 f q)
      = (m ((c : Thread nD τ).loc main_arg2) : S256x256.Idx → Elt Ideal .f32) (ix2 f q) := by
  obtain ⟨-, -, -, -, -, e0, e1, -⟩ := idx_facts t
  show V m c main_arg2 (((cfg0.win 2).blk t).view.emb (ix2 f q)) = _
  rw [V_main_arg2]
  refine congrArg _ (funext fun a => Fin.ext ?_)
  match a with
  | ⟨0, _⟩ => show win0_2.index t (0 : Fin 2) * 256 + 1 * f.val = f.val; rw [e0]; omega
  | ⟨1, _⟩ => show win0_2.index t (1 : Fin 2) * 256 + 1 * q.val = q.val; rw [e1]; omega

/-! ## What a point writes back -/

/-- Where entry (p, q) of the first output's block at point t sits in the array. -/
theorem blk3_emb (t : Fin cfg0.N) (p : Fin 512) (q : Fin 256) :
    ((cfg0.win 3).blk t).view.emb (ix2 p q) = (ix2 (rowOf t p) q : S8192x256.Idx) := by
  obtain ⟨-, -, -, -, -, -, -, e0, e1, -⟩ := idx_facts t
  funext a
  apply Fin.ext
  match a with
  | ⟨0, _⟩ => show win0_3.index t (0 : Fin 2) * 512 + 1 * p.val = t.val * 512 + p.val; rw [e0]; omega
  | ⟨1, _⟩ => show win0_3.index t (1 : Fin 2) * 256 + 1 * q.val = q.val; rw [e1]; omega

/-- Where entry (k, p, q) of the second output's block at point t sits in the array. -/
theorem blk4_emb (t : Fin cfg0.N) (k : Fin 16) (p : Fin 512) (q : Fin 256) :
    ((cfg0.win 4).blk t).view.emb (ix3 k p q) = (ix3 k (rowOf t p) q : S16x8192x256.Idx) := by
  obtain ⟨-, -, -, -, -, -, -, -, -, e0, e1, e2⟩ := idx_facts t
  funext a
  apply Fin.ext
  match a with
  | ⟨0, _⟩ => show win0_4.index t (0 : Fin 3) * 16 + 1 * k.val = k.val; rw [e0]; omega
  | ⟨1, _⟩ => show win0_4.index t (1 : Fin 3) * 512 + 1 * p.val = t.val * 512 + p.val; rw [e1]; omega
  | ⟨2, _⟩ => show win0_4.index t (2 : Fin 3) * 256 + 1 * q.val = q.val; rw [e2]; omega

/-- Point t writes back block t of the sum over the neighbours. -/
theorem flushed3_eq (c : Dev nD) (t : Fin cfg0.N) :
    (dats m 0 c).flushed 3 t = ((cfg0.win 3).blk t).view.read (Elt Ideal)
      (Cert.GraphConv.aggred (m ((c : Thread nD τ).loc main_arg1)) (m ((c : Thread nD τ).loc main_arg2))) := by
  show (cfg0.win 3).cut (grid0.coords t) ((dats m 0 c).after 3 t) = _
  rw [after0_3, out0_3_eq]
  funext j
  obtain ⟨p, q, rfl⟩ : ∃ (p : Fin 512) (q : Fin 256), j = ix2 p q := ⟨j 0, j 1, eq_ix2 j⟩
  show sumBlock (iblk m c 1 t) (iblk m c 2 t) (ix2 p q)
    = Cert.GraphConv.aggred (m ((c : Thread nD τ).loc main_arg1)) (m ((c : Thread nD τ).loc main_arg2)) (((cfg0.win 3).blk t).view.emb (ix2 p q))
  rw [blk3_emb]
  exact sumBlock_at (iblk m c 1 t) (iblk m c 2 t) (m ((c : Thread nD τ).loc main_arg1)) (m ((c : Thread nD τ).loc main_arg2))
    (rowOf t p) p q (fun k f => iblk1_apply m c t k p f) (fun f => iblk2_apply m c t f q)

/-- Point t writes back block t of the node's projected row plus each neighbour's. -/
theorem flushed4_eq (c : Dev nD) (t : Fin cfg0.N) :
    (dats m 0 c).flushed 4 t = ((cfg0.win 4).blk t).view.read (Elt Ideal)
      (neighborOutT (m ((c : Thread nD τ).loc main_arg0)) (m ((c : Thread nD τ).loc main_arg1)) (m ((c : Thread nD τ).loc main_arg2))) := by
  show (cfg0.win 4).cut (grid0.coords t) ((dats m 0 c).after 4 t) = _
  rw [after0_4, out0_4_eq]
  funext j
  obtain ⟨k, p, q, rfl⟩ : ∃ (k : Fin 16) (p : Fin 512) (q : Fin 256), j = ix3 k p q := ⟨j 0, j 1, j 2, eq_ix3 j⟩
  show neighborBlock (iblk m c 0 t) (iblk m c 1 t) (iblk m c 2 t) (ix3 k p q)
    = neighborOutT (m ((c : Thread nD τ).loc main_arg0)) (m ((c : Thread nD τ).loc main_arg1)) (m ((c : Thread nD τ).loc main_arg2))
        (((cfg0.win 4).blk t).view.emb (ix3 k p q))
  rw [blk4_emb]
  exact neighborBlock_at (iblk m c 0 t) (iblk m c 1 t) (iblk m c 2 t) (m ((c : Thread nD τ).loc main_arg0))
    (m ((c : Thread nD τ).loc main_arg1)) (m ((c : Thread nD τ).loc main_arg2)) (rowOf t p) k p q
    (fun f => iblk0_apply m c t p f) (fun f => iblk1_apply m c t k p f) (fun f => iblk2_apply m c t f q)

/-! ## The blocks tile the arrays -/

/-- An index of the first output's array is in point t's block iff each coordinate is in the block's range. -/
theorem mem_blk3 (t : Fin cfg0.N) (i : S8192x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1_0).slice (win0_3.rect t)).set ↔ _
  rw [View.set_slice_whole, Rect.mem_set_unit]
  exact Iff.rfl

/-- An index of the second output's array is in point t's block iff each coordinate is in the block's range. -/
theorem mem_blk4 (t : Fin cfg0.N) (i : S16x8192x256.Idx) :
    i ∈ ((cfg0.win 4).blk t).view.set ↔ ∀ a : Fin 3, win0_4.index t a * S16x512x256.size a ≤ (i a).val ∧ (i a).val < win0_4.index t a * S16x512x256.size a + S16x512x256.size a := by
  show i ∈ ((View.whole main_v1_1).slice (win0_4.rect t)).set ↔ _
  rw [View.set_slice_whole, Rect.mem_set_unit]
  exact Iff.rfl

/-- The point whose block holds node b. -/
def pointOf (b : Nat) (hb : b < 8192) : Fin cfg0.N := ⟨b / 512, by rw [show cfg0.N = 16 from N_0]; omega⟩

/-- Every index of the first output's array is in the block of the point of its node. -/
theorem cover3 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  refine ⟨pointOf (i 0).val hi0, flush0_3 _, ?_⟩
  obtain ⟨-, -, -, -, -, -, -, e0, e1, -⟩ := idx_facts (pointOf (i 0).val hi0)
  have ht : (pointOf (i 0).val hi0).val = (i 0).val / 512 := rfl
  rw [mem_blk3]
  intro a
  match a with
  | ⟨0, _⟩ => show win0_3.index (pointOf (i 0).val hi0) (0 : Fin 2) * 512 ≤ (i 0).val ∧ (i 0).val < win0_3.index (pointOf (i 0).val hi0) (0 : Fin 2) * 512 + 512; rw [e0, ht]; omega
  | ⟨1, _⟩ => show win0_3.index (pointOf (i 0).val hi0) (1 : Fin 2) * 256 ≤ (i 1).val ∧ (i 1).val < win0_3.index (pointOf (i 0).val hi0) (1 : Fin 2) * 256 + 256; rw [e1]; omega

/-- Every index of the second output's array is in the block of the point of its node. -/
theorem cover4 (i : S16x8192x256.Idx) : ∃ t : Fin cfg0.N, (cfg0.win 4).flush t = true ∧ i ∈ ((cfg0.win 4).blk t).view.set := by
  have hi0 : (i 0).val < 16 := (i 0).isLt
  have hi1 : (i 1).val < 8192 := (i 1).isLt
  have hi2 : (i 2).val < 256 := (i 2).isLt
  refine ⟨pointOf (i 1).val hi1, flush0_4 _, ?_⟩
  obtain ⟨-, -, -, -, -, -, -, -, -, e0, e1, e2⟩ := idx_facts (pointOf (i 1).val hi1)
  have ht : (pointOf (i 1).val hi1).val = (i 1).val / 512 := rfl
  rw [mem_blk4]
  intro a
  match a with
  | ⟨0, _⟩ => show win0_4.index (pointOf (i 1).val hi1) (0 : Fin 3) * 16 ≤ (i 0).val ∧ (i 0).val < win0_4.index (pointOf (i 1).val hi1) (0 : Fin 3) * 16 + 16; rw [e0]; omega
  | ⟨1, _⟩ => show win0_4.index (pointOf (i 1).val hi1) (1 : Fin 3) * 512 ≤ (i 1).val ∧ (i 1).val < win0_4.index (pointOf (i 1).val hi1) (1 : Fin 3) * 512 + 512; rw [e1, ht]; omega
  | ⟨2, _⟩ => show win0_4.index (pointOf (i 1).val hi1) (2 : Fin 3) * 256 ≤ (i 2).val ∧ (i 2).val < win0_4.index (pointOf (i 1).val hi1) (2 : Fin 3) * 256 + 256; rw [e2]; omega

/-! ## The output arrays after the region -/

/-- The first output's array after the region: the sum over the neighbours. -/
theorem final3 (c : Dev nD) : (dats m 0 c).arrAt 3 cfg0.N
    = Cert.GraphConv.aggred (m ((c : Thread nD τ).loc main_arg1)) (m ((c : Thread nD τ).loc main_arg2)) :=
  (dats m 0 c).arrAt_eq_of_cover 3 _ (fun t _ => flushed3_eq m c t) cover3

/-- The second output's array after the region: the node's projected row plus each neighbour's, neighbour axis first. -/
theorem final4 (c : Dev nD) : (dats m 0 c).arrAt 4 cfg0.N
    = neighborOutT (m ((c : Thread nD τ).loc main_arg0)) (m ((c : Thread nD τ).loc main_arg1)) (m ((c : Thread nD τ).loc main_arg2)) :=
  (dats m 0 c).arrAt_eq_of_cover 4 _ (fun t _ => flushed4_eq m c t) cover4

end Cert.RefSide

end
-- ==== Proof.RefHostTail.lean ====
/-
  The reference's last host line: its second result is the slot-major array the launch leaves, with the first two axes
  exchanged back, so entry (b, k, j) of the result is entry (k, b, j) of the slot-major array.
-/
import proofs.«118732_g2000104578353512_pallasbulk_618_15_alg».proof.Proof.Gen.ReferenceIdeal.Frame
import Idealize.ShloMosaic.Lib.StableHlo.Run
import Idealize.ShloMosaic.Lib.ValueIdx
import Idealize.ShloMosaic.Lib.Pipeline.Value

noncomputable section

namespace Cert.RefSide

open Idealize.ShloMosaic Idealize.ShloMosaic.TcCoe Idealize.SL.Sem Idealize.ShloMosaic.ValueIdx
open Cert.ReferenceIdeal Cert.ReferenceIdeal.Gen

/-- After the host line that follows the launch, the second result holds the transpose of what the launch left in the
    slot-major array. -/
theorem tail_main_v2 (m : (ℓ : Loc nD τ sig) → Buf (Elt Ideal) ℓ) (c : Dev nD) :
    Pipeline.afterTail₀ cfgs (dats m) 0 (V0 m) [hostOps1] c main_v2
      = transpose S8192x16x256 [1, 0, 2] ((dats m 0 c).arrAt 4 cfg0.N) transposes_S16x8192x256_S8192x16x256_1_0_2 := by
  unfold Pipeline.afterTail₀
  show StableHlo.after hostOps1 _ (Proc.devRef .tc main_v2) = _
  after_results
  exact congrArg (fun G => transpose S8192x16x256 [1, 0, 2] G transposes_S16x8192x256_S8192x16x256_1_0_2)
    (Pipeline.withArrays_arr spec0 launch0.win.arr_inj c _ _ 4)

/-- Exchanging the first two axes back: entry (b, k, j) of the transpose is entry (k, b, j) of the slot-major array. -/
theorem transpose_102_apply (G : S16x8192x256.Idx → Elt Ideal .f32) (b : Fin 8192) (k : Fin 16) (j : Fin 256) :
    transpose S8192x16x256 [1, 0, 2] G transposes_S16x8192x256_S8192x16x256_1_0_2 (ix3 b k j) = G (ix3 k b j) :=
  transpose_apply [1, 0, 2] G _ (ix3 b k j) (ix3 k b j)
    (fun a => by match a with | ⟨0, _⟩ => rfl | ⟨1, _⟩ => rfl | ⟨2, _⟩ => rfl)

end Cert.RefSide

end
-- ==== Proof.RefTail.lean ====
/-
  The reference program's value.

  After the region the program exchanges the first two axes of the region's second output, which undoes the exchange
  made on the neighbour features before the region: the second result at (b, k, j) is node b's projected row plus its
  k-th neighbour's projected row at entry j.  The first result is the region's first output as it stands.  The three
  argument arrays end as they began.
-/
import proofs.«118732_g2000104578353512_pallasbulk_618_15_alg».proof.Proof.RefArrays
import proofs.«118732_g2000104578353512_pallasbulk_618_15_alg».proof.Proof.RefHostTail

noncomputable section

open scoped BigOperators

namespace Cert.RefSide

open Idealize.ShloMosaic Idealize.ShloMosaic.ValueIdx Cert.ReferenceIdeal Cert.ReferenceIdeal.Gen Idealize.ShloMosaic.TcCoe Idealize.SL.Sem

open Idealize.ShloMosaic.Pipeline (Dat)

/-- Exchanging the first two axes of the region's second output gives the second result. -/
theorem transpose_neighborOutT (x : FVec Ideal Cert.GraphConv.SX .f32) (n : FVec Ideal Cert.GraphConv.SN .f32)
    (w : FVec Ideal Cert.GraphConv.SW .f32) :
    transpose S8192x16x256 [1, 0, 2] (neighborOutT x n w) transposes_S16x8192x256_S8192x16x256_1_0_2
      = Cert.GraphConv.neighborOut x n w := by
  funext i
  obtain ⟨b, k, j, rfl⟩ : ∃ (b : Fin 8192) (k : Fin 16) (j : Fin 256), i = ix3 b k j := ⟨i 0, i 1, i 2, eq_ix3 i⟩
  exact transpose_102_apply (neighborOutT x n w) b k j

variable (m : (ℓ : Loc nD τ sig) → Buf (Elt Ideal) ℓ) (ρ : Dev nD → PrngReg)

/-- The second result's array after the program: the lines after the region applied to the region's second output. -/
theorem final_v2 (c : Dev nD) :
    Pipeline.afterTail₀ cfgs (dats m) 0 (V0 m) [hostOps1] c main_v2
      = Cert.GraphConv.neighborOut (m ((c.tc : Thread nD τ).loc main_arg0)) (m ((c.tc : Thread nD τ).loc main_arg1))
          (m ((c.tc : Thread nD τ).loc main_arg2)) := by
  rw [tail_main_v2, final4]
  exact transpose_neighborOutT _ _ _

/-- Every weakly fair execution of the reference program ends, with the first result the sum over each node's sixteen
    projected neighbour rows, the second result each node's projected row added to each of its projected neighbour rows,
    and the three arguments unchanged. -/
theorem run : θ_run (defs (F := Ideal)) (onTc (τ := τ) (main (F := Ideal))) ⟨m, fun _ => 0, ρ⟩ (fun r => ∀ c : Dev nD,
      r.2.mem ((c.tc : Thread nD τ).loc main_v1_0)
        = Cert.GraphConv.aggred (m ((c.tc : Thread nD τ).loc main_arg1)) (m ((c.tc : Thread nD τ).loc main_arg2))
      ∧ r.2.mem ((c.tc : Thread nD τ).loc main_v2)
        = Cert.GraphConv.neighborOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c),
      ((h c).2 main_v2 (Pipeline.mem_restRefs_of main_v2 (by decide) (by decide))).trans (final_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.RefSide

end
-- ==== Proof.lean ====
/-
  A graph convolution with sixteen neighbour slots, computed two ways, is one function of its arguments over the
  extended reals.

  Both programs take node features x (8192 × 256), neighbour features n (8192 × 16 × 256) and a matrix w (256 × 256), and
  return, for node b, the sum over its sixteen neighbours k of the projected rows n[b, k, ·] · w, and, for each (b, k), the
  node's projected row x[b, ·] · w plus that neighbour's projected row.

  The kernel works on 256 nodes per grid point.  It merges the (node, slot) axes of the neighbour block into 4096 rows,
  multiplies once by w, and uses a zero-one expansion matrix E (4096 × 256, a one in row r at column r / 16) built on the
  host: E · (x · w) repeats each node's projected row sixteen times, and Eᵀ · (merged product) adds up each node's sixteen
  rows.  Since 0 · a = 0 and 1 · a = a for every extended real a, finite or not, these two products are exactly the
  repetition and the sixteen-term sum.

  The reference transposes the neighbours to slot-major order on the host, works on 512 nodes per grid point, multiplies
  each of the sixteen slot slabs by w, adds them up one after the other, and transposes its second result back.  The two
  transposes cancel and the left-nested sum of sixteen terms is the sum over the sixteen slots by associativity.

  So each program's two result arrays are the same two functions (Spec.lean) of the argument arrays, and since only the
  laws of a commutative monoid under addition and the two products with 0 and 1 are used, nothing is needed of the inputs'
  finiteness.  The idealization of the kernel rewrote nothing, so there is nothing to preserve; the three frames are the
  generated ones.
-/
import proofs.«118732_g2000104578353512_pallasbulk_618_15_alg».proof.Defs
import proofs.«118732_g2000104578353512_pallasbulk_618_15_alg».proof.Proof.Gen.Kernel
import proofs.«118732_g2000104578353512_pallasbulk_618_15_alg».proof.Proof.Gen.Kernel.Skeleton
import proofs.«118732_g2000104578353512_pallasbulk_618_15_alg».proof.Proof.Gen.Kernel.Launch
import proofs.«118732_g2000104578353512_pallasbulk_618_15_alg».proof.Proof.Gen.Kernel.Points
import proofs.«118732_g2000104578353512_pallasbulk_618_15_alg».proof.Proof.Gen.Kernel.Frame
import proofs.«118732_g2000104578353512_pallasbulk_618_15_alg».proof.Proof.Gen.KernelIdeal
import proofs.«118732_g2000104578353512_pallasbulk_618_15_alg».proof.Proof.Gen.KernelIdeal.Skeleton
import proofs.«118732_g2000104578353512_pallasbulk_618_15_alg».proof.Proof.Gen.KernelIdeal.Launch
import proofs.«118732_g2000104578353512_pallasbulk_618_15_alg».proof.Proof.Gen.KernelIdeal.Points
import proofs.«118732_g2000104578353512_pallasbulk_618_15_alg».proof.Proof.Gen.KernelIdeal.Frame
import proofs.«118732_g2000104578353512_pallasbulk_618_15_alg».proof.Proof.Gen.KernelIdeal.Value
import proofs.«118732_g2000104578353512_pallasbulk_618_15_alg».proof.Proof.Gen.ReferenceIdeal
import proofs.«118732_g2000104578353512_pallasbulk_618_15_alg».proof.Proof.Gen.ReferenceIdeal.Skeleton
import proofs.«118732_g2000104578353512_pallasbulk_618_15_alg».proof.Proof.Gen.ReferenceIdeal.Launch
import proofs.«118732_g2000104578353512_pallasbulk_618_15_alg».proof.Proof.Gen.ReferenceIdeal.Points
import proofs.«118732_g2000104578353512_pallasbulk_618_15_alg».proof.Proof.Gen.ReferenceIdeal.Frame
import proofs.«118732_g2000104578353512_pallasbulk_618_15_alg».proof.Proof.Gen.Pre_finite_inputs
import proofs.«118732_g2000104578353512_pallasbulk_618_15_alg».proof.Proof.Spec
import proofs.«118732_g2000104578353512_pallasbulk_618_15_alg».proof.Proof.KerBlocks
import proofs.«118732_g2000104578353512_pallasbulk_618_15_alg».proof.Proof.RefTail
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference read at the ideal values. -/
theorem frame_ri : Cert.frame_ReferenceIdeal := fun m ρ _ => Cert.ReferenceIdeal.Gen.frame m ρ

/-- The idealization rewrote no operation of the kernel. -/
theorem preserves : Cert.preserves_Kernel_KernelIdeal := trivial

/-- From memories that agree on the three arguments, both programs end with the neighbour aggregate in their first
    result and the sums of projected rows in their second. -/
theorem algebraic : Cert.algebraic_KernelIdeal_ReferenceIdeal := by
  intro m ρ m' ρ' _ hagree
  refine ⟨fun c => Cert.GraphConv.aggred
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.GraphConv.neighborOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KerSide.run m ρ, ?_⟩
  refine (θ_run Cert.ReferenceIdeal.defs _ _).mono (fun r h c => ?_) (Cert.RefSide.run m' ρ')
  obtain ⟨h1, h2, h3, h4, h5⟩ := h c
  obtain ⟨a0, a1, a2⟩ := hagree c
  refine ⟨h1.trans ?_, h2.trans ?_, h3, h4, h5⟩
  · rw [a1, a2]
  · rw [a0, a1, a2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
